-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x4096, .f32⟩
  | .hbm, ⟨12, _⟩ => ⟨S2048x4096, .bf16⟩
  | .hbm, ⟨13, _⟩ => ⟨S4096, .f32⟩
  | .hbm, ⟨14, _⟩ => ⟨S1x4096, .f32⟩
  | .hbm, ⟨15, _⟩ => ⟨S8192x1024, .f32⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2048x4096, .bf16⟩
  | .local _ .vmem, ⟨5, _⟩ => ⟨S1x4096, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4096.size a ≤ S2048x4096.size a
  hwx0_2 : ∀ i : grid0.Coords, EltTy.bits .bf16 = 32 ∨ (Rect.block (s := S2048x4096) S2048x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.BitsFrame.lean ====
/-
  The frame of the cell kernel's program: every weakly fair execution of @main — four host operations that lay the
  gate weights side by side (narrowed to bf16) and the gate biases end to end (as one row), then one pipelined region
  over 32 batch tiles of 256 rows — terminates, faults nowhere, and leaves the eleven argument arrays as launched.

  The region stages seven windows. Five are inputs: the tile's 256 input rows, its 256 hidden rows, the whole weight
  matrix and the whole bias row (both fetched once, at the first tile, and found again unmoved at every later tile), and
  the tile's 256 cell rows. Two are outputs, each a 256 × 1024 tile written back after every point. The body loads the
  five input blocks (the weight matrix as its upper and lower halves), also loads both output buffers (the values are
  never used), and stores each output buffer whole, exactly once. So after the body at a point each output buffer holds
  one pure function of the five input blocks (`hiddenTile`, `cellTile` below: the body's arithmetic is the skeleton's
  payloads, kept closed here), each input buffer still holds its block, and nothing else of the core is touched: the
  region invariant is the plain one (the scoped rest and the generator register at anything).

  Stated at any float instance `F`; what the output arrays hold afterwards is kept in the run's post (`run_main`) for
  the value argument, and forgotten in `frame`.
-/
import proofs.«155004_j27736898798344_2_alg».proof.Proof.Gen.Kernel.Launch
import proofs.«155004_j27736898798344_2_alg».proof.Proof.Gen.Kernel.Skeleton
import proofs.«155004_j27736898798344_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the four host operations. -/
abbrev V (c : Dev nD) (b : Ref sig .tc) : Buf (Elt F) ((c : Thread nD τ).loc b) :=
  StableHlo.after hostOps0 (fun b => m (c, b)) b

/-- None of the four host operations allocates: each writes its result over the operands' contents. -/
theorem hostOps0_fresh : (hostOps0 : List (HloOp τ sig (Elt F))).Forall fun op => op.fresh = ∅ := by
  simp only [List.Forall]; repeat' constructor

/-- @main is the four host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (where it is not
    fetched its block index has not moved since the fetch), for any proof data over these arrays whose body leaves the
    block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- From a run to the library's frame post — every staged array at what the proof data compute, every other unscoped
    buffer as the region found it — the argument arrays end as launched: a staged input is never written back, an
    array no window stages bypasses the region, and no host operation writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 4).trans (((dats 0 c).arrAt_in 4 rfl _).trans ((hA c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- A whole 256 × 1024 tile. -/
abbrev rTile : Rect S256x1024 := Rect.unit (s := S256x1024) ![0, 0] S256x1024.size inb_S256x1024_S256x1024_0_0
/-- The weight matrix's upper 1024 rows (those that meet the input row) -/
abbrev rUpper : Rect S2048x4096 := Rect.unit (s := S2048x4096) ![0, 0] S1024x4096.size inb_S2048x4096_S1024x4096_0_0
/-- and its lower 1024 rows (those that meet the hidden row). -/
abbrev rLower : Rect S2048x4096 := Rect.unit (s := S2048x4096) ![1024, 0] S1024x4096.size inb_S2048x4096_S1024x4096_1024_0
/-- The whole bias row. -/
abbrev rBias : Rect S1x4096 := Rect.unit (s := S1x4096) ![0, 0] S1x4096.size inb_S1x4096_S1x4096_0_0

/-! ## What the body leaves in each output buffer -/

/-- The new hidden tile, from the five input blocks: the one store into the first output buffer. -/
def hiddenTile (x0 x1 : Vec F S256x1024 .f32) (x2 : Vec F S2048x4096 .bf16) (x3 : Vec F S1x4096 .f32) (x4 : Vec F S256x1024 .f32) : Vec F S256x1024 .f32 :=
  View.canon [⟨rTile, k0_pay3 (View.ld x0 rTile) (View.ld x1 rTile) (View.ld x2 rUpper) (View.ld x2 rLower) (View.ld x3 rBias) (View.ld x4 rTile)⟩]

/-- The new cell tile, from the five input blocks: the one store into the second output buffer. -/
def cellTile (x0 x1 : Vec F S256x1024 .f32) (x2 : Vec F S2048x4096 .bf16) (x3 : Vec F S1x4096 .f32) (x4 : Vec F S256x1024 .f32) : Vec F S256x1024 .f32 :=
  View.canon [⟨rTile, k0_pay2 (View.ld x0 rTile) (View.ld x1 rTile) (View.ld x2 rUpper) (View.ld x2 rLower) (View.ld x3 rBias) (View.ld x4 rTile)⟩]

/-- One store through the whole-tile rectangle covers the tile. -/
theorem cover_tile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The body on whole staging memrefs — the inputs' at read contents `x0 … x4`, the outputs' at anything — runs to the
    continuation holding the inputs' as they were and the outputs' at `hiddenTile` and `cellTile` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S2048x4096 .bf16) (harg3 : arg3.IsWhole) (arg4 : Memref sig .tc .vmem S1x4096 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S256x1024 .f32) (harg7 : arg7.IsWhole)
    (x0 x1 : Vec F S256x1024 .f32) (x2 : Vec F S2048x4096 .bf16) (x3 : Vec F S1x4096 .f32) (x4 : Vec F S256x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hiddenTile x0 x1 x2 x3 x4) ∗ owns (c : Thread nD τ) arg7 fullShare (cellTile x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_tile _)
  iexists _; isplitr
  swap; · iexact H6
  ipureintro
  exact View.read_writes_eq_canon _ _ _ (cover_tile _)

/-! ## The pipeline's proof data -/

/-- The proof data of the one pipeline on core `c`: the arrays as the region finds them; after the body at point `t` each
    input's buffer at its block and each output's at its tile of the input blocks; the plain invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenTile (iblk m c 0 t) (iblk m c 1 t) (iblk m c 2 t) (iblk m c 3 t) (iblk m c 4 t)
    | ⟨6, _⟩ => cellTile (iblk m c 0 t) (iblk m c 1 t) (iblk m c 2 t) (iblk m c 3 t) (iblk m c 4 t)
  Φ _ := Pipeline.ΦA spec0 c
  q _ := fullShare
  owed _ := 0

/-- The proof data's arrays are the region-entry contents (projected, so the fold over the host operations stays closed). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hiddenTile (iblk m c 0 t) (iblk m c 1 t) (iblk m c 2 t) (iblk m c 3 t) (iblk m c 4 t) := by dsimp only [dats]
theorem after6 (c : Dev nD) (t : Fin cfg0.N) : (dats m 0 c).after 6 t = cellTile (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    staged array at what the proof data compute — an input its launch contents, an output those overwritten tile by
    tile with what the body left — and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.CellFrame

end
-- ==== Proof.IdealFrame.lean ====
/-
  The frame of the cell kernel's program: every weakly fair execution of @main — four host operations that lay the
  gate weights side by side (narrowed to bf16) and the gate biases end to end (as one row), then one pipelined region
  over 32 batch tiles of 256 rows — terminates, faults nowhere, and leaves the eleven argument arrays as launched.

  The region stages seven windows. Five are inputs: the tile's 256 input rows, its 256 hidden rows, the whole weight
  matrix and the whole bias row (both fetched once, at the first tile, and found again unmoved at every later tile), and
  the tile's 256 cell rows. Two are outputs, each a 256 × 1024 tile written back after every point. The body loads the
  five input blocks (the weight matrix as its upper and lower halves), also loads both output buffers (the values are
  never used), and stores each output buffer whole, exactly once. So after the body at a point each output buffer holds
  one pure function of the five input blocks (`hiddenTile`, `cellTile` below: the body's arithmetic is the skeleton's
  payloads, kept closed here), each input buffer still holds its block, and nothing else of the core is touched: the
  region invariant is the plain one (the scoped rest and the generator register at anything).

  Stated at any float instance `F`; what the output arrays hold afterwards is kept in the run's post (`run_main`) for
  the value argument, and forgotten in `frame`.
-/
import proofs.«155004_j27736898798344_2_alg».proof.Proof.Gen.KernelIdeal.Launch
import proofs.«155004_j27736898798344_2_alg».proof.Proof.Gen.KernelIdeal.Skeleton
import proofs.«155004_j27736898798344_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the four host operations. -/
abbrev V (c : Dev nD) (b : Ref sig .tc) : Buf (Elt F) ((c : Thread nD τ).loc b) :=
  StableHlo.after hostOps0 (fun b => m (c, b)) b

/-- None of the four host operations allocates: each writes its result over the operands' contents. -/
theorem hostOps0_fresh : (hostOps0 : List (HloOp τ sig (Elt F))).Forall fun op => op.fresh = ∅ := by
  simp only [List.Forall]; repeat' constructor

/-- @main is the four host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (where it is not
    fetched its block index has not moved since the fetch), for any proof data over these arrays whose body leaves the
    block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- From a run to the library's frame post — every staged array at what the proof data compute, every other unscoped
    buffer as the region found it — the argument arrays end as launched: a staged input is never written back, an
    array no window stages bypasses the region, and no host operation writes an argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 4).trans (((dats 0 c).arrAt_in 4 rfl _).trans ((hA c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

/-- A whole 256 × 1024 tile. -/
abbrev rTile : Rect S256x1024 := Rect.unit (s := S256x1024) ![0, 0] S256x1024.size inb_S256x1024_S256x1024_0_0
/-- The weight matrix's upper 1024 rows (those that meet the input row) -/
abbrev rUpper : Rect S2048x4096 := Rect.unit (s := S2048x4096) ![0, 0] S1024x4096.size inb_S2048x4096_S1024x4096_0_0
/-- and its lower 1024 rows (those that meet the hidden row). -/
abbrev rLower : Rect S2048x4096 := Rect.unit (s := S2048x4096) ![1024, 0] S1024x4096.size inb_S2048x4096_S1024x4096_1024_0
/-- The whole bias row. -/
abbrev rBias : Rect S1x4096 := Rect.unit (s := S1x4096) ![0, 0] S1x4096.size inb_S1x4096_S1x4096_0_0

/-! ## What the body leaves in each output buffer -/

/-- The new hidden tile, from the five input blocks: the one store into the first output buffer. -/
def hiddenTile (x0 x1 : Vec F S256x1024 .f32) (x2 : Vec F S2048x4096 .bf16) (x3 : Vec F S1x4096 .f32) (x4 : Vec F S256x1024 .f32) : Vec F S256x1024 .f32 :=
  View.canon [⟨rTile, k0_pay3 (View.ld x0 rTile) (View.ld x1 rTile) (View.ld x2 rUpper) (View.ld x2 rLower) (View.ld x3 rBias) (View.ld x4 rTile)⟩]

/-- The new cell tile, from the five input blocks: the one store into the second output buffer. -/
def cellTile (x0 x1 : Vec F S256x1024 .f32) (x2 : Vec F S2048x4096 .bf16) (x3 : Vec F S1x4096 .f32) (x4 : Vec F S256x1024 .f32) : Vec F S256x1024 .f32 :=
  View.canon [⟨rTile, k0_pay2 (View.ld x0 rTile) (View.ld x1 rTile) (View.ld x2 rUpper) (View.ld x2 rLower) (View.ld x3 rBias) (View.ld x4 rTile)⟩]

/-- One store through the whole-tile rectangle covers the tile. -/
theorem cover_tile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The body on whole staging memrefs — the inputs' at read contents `x0 … x4`, the outputs' at anything — runs to the
    continuation holding the inputs' as they were and the outputs' at `hiddenTile` and `cellTile` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S2048x4096 .bf16) (harg3 : arg3.IsWhole) (arg4 : Memref sig .tc .vmem S1x4096 .f32) (harg4 : arg4.IsWhole)
    (arg5 : Memref sig .tc .vmem S256x1024 .f32) (harg5 : arg5.IsWhole) (arg6 : Memref sig .tc .vmem S256x1024 .f32) (harg6 : arg6.IsWhole)
    (arg7 : Memref sig .tc .vmem S256x1024 .f32) (harg7 : arg7.IsWhole)
    (x0 x1 : Vec F S256x1024 .f32) (x2 : Vec F S2048x4096 .bf16) (x3 : Vec F S1x4096 .f32) (x4 : Vec F S256x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (hiddenTile x0 x1 x2 x3 x4) ∗ owns (c : Thread nD τ) arg7 fullShare (cellTile x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_tile _)
  iexists _; isplitr
  swap; · iexact H6
  ipureintro
  exact View.read_writes_eq_canon _ _ _ (cover_tile _)

/-! ## The pipeline's proof data -/

/-- The proof data of the one pipeline on core `c`: the arrays as the region finds them; after the body at point `t` each
    input's buffer at its block and each output's at its tile of the input blocks; the plain invariant; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenTile (iblk m c 0 t) (iblk m c 1 t) (iblk m c 2 t) (iblk m c 3 t) (iblk m c 4 t)
    | ⟨6, _⟩ => cellTile (iblk m c 0 t) (iblk m c 1 t) (iblk m c 2 t) (iblk m c 3 t) (iblk m c 4 t)
  Φ _ := Pipeline.ΦA spec0 c
  q _ := fullShare
  owed _ := 0

/-- The proof data's arrays are the region-entry contents (projected, so the fold over the host operations stays closed). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = hiddenTile (iblk m c 0 t) (iblk m c 1 t) (iblk m c 2 t) (iblk m c 3 t) (iblk m c 4 t) := by dsimp only [dats]
theorem after6 (c : Dev nD) (t : Fin cfg0.N) : (dats m 0 c).after 6 t = cellTile (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    staged array at what the proof data compute — an input its launch contents, an output those overwritten tile by
    tile with what the body left — and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.CellFrame

end
-- ==== Proof.CellSpec.lean ====
/-
  One step of a long short-term memory cell, element by element, on the extended reals.

  For a batch row `r` the four gates share one affine map of the row: with `x` the input row (1024 entries), `h` the
  hidden row (1024 entries), `W` a 2048 × 4096 weight matrix whose upper 1024 rows meet `x` and whose lower 1024 rows meet
  `h`, and `b` a bias of 4096 entries, the pre-activation of column `c` is

      gate r c = (∑ k < 1024, x r k · W k c  +  ∑ k < 1024, h r k · W (1024 + k) c)  +  b c.

  The columns fall into four bands of 1024: forget, input, candidate, output. With σ the logistic function,

      cell' r j   = σ (gate r j) · cell r j  +  σ (gate r (1024 + j)) · tanh (gate r (2048 + j)),
      hidden' r j = σ (gate r (3072 + j)) · tanh (cell' r j).

  `W` and `b` are arguments here: how they are laid out from the per-gate matrices is the same on both sides of the
  comparison and is never opened. No finiteness is assumed: the only laws used to compare two spellings of these
  functions are the associativity and commutativity of the extended reals' addition.
-/
import Idealize.ShloMosaic.PureOps.Ideal
import Idealize.ShloMosaic.Lib.ValueIdx

noncomputable section

open scoped BigOperators

namespace Cert.LstmCell

open Idealize.ShloMosaic Idealize.ShloMosaic.ValueIdx

/-- Batch × features: the input, the hidden state, the cell state and both results. -/
abbrev Rows : Shape := ⟨2, ![8192, 1024]⟩
/-- The four gates' weight matrices side by side: (input + hidden features) × (4 · hidden features). -/
abbrev Wts : Shape := ⟨2, ![2048, 4096]⟩
/-- The four gates' biases end to end. -/
abbrev Bias : Shape := ⟨1, ![4096]⟩

/-- Row `k` of the weight matrix's upper half (the rows that meet the input). -/
abbrev upper (k : Fin 1024) : Fin 2048 := ⟨k.val, by omega⟩
/-- Row `k` of the weight matrix's lower half (the rows that meet the hidden state). -/
abbrev lower (k : Fin 1024) : Fin 2048 := ⟨1024 + k.val, by omega⟩

/-- Column `j` of band `g` (0 forget, 1 input, 2 candidate, 3 output) among the 4096 gate columns. -/
abbrev band (g : Fin 4) (j : Fin 1024) : Fin 4096 := ⟨1024 * g.val + j.val, by omega⟩

/-- The pre-activation of gate column `c` on batch row `r`. -/
def gate (x h : Rows.Idx → EReal) (W : Wts.Idx → EReal) (b : Bias.Idx → EReal) (r : Fin 8192) (c : Fin 4096) : EReal :=
  ((∑ k : Fin 1024, x (ix2 r k) * W (ix2 (upper k) c)) + (∑ k : Fin 1024, h (ix2 r k) * W (ix2 (lower k) c))) + b (ix1 c)

/-- The new cell state at row `r`, feature `j`. -/
def newCell (x h cell : Rows.Idx → EReal) (W : Wts.Idx → EReal) (b : Bias.Idx → EReal) (r : Fin 8192) (j : Fin 1024) : EReal :=
  Ideal.logistic (gate x h W b r (band 0 j)) * cell (ix2 r j)
    + Ideal.logistic (gate x h W b r (band 1 j)) * Ideal.tanh (gate x h W b r (band 2 j))

/-- The new hidden state at row `r`, feature `j`. -/
def newHidden (x h cell : Rows.Idx → EReal) (W : Wts.Idx → EReal) (b : Bias.Idx → EReal) (r : Fin 8192) (j : Fin 1024) : EReal :=
  Ideal.logistic (gate x h W b r (band 3 j)) * Ideal.tanh (newCell x h cell W b r j)

/-- The new cell state as a whole array. -/
def cellArr (x h cell : Rows.Idx → EReal) (W : Wts.Idx → EReal) (b : Bias.Idx → EReal) : Rows.Idx → EReal :=
  fun i => newCell x h cell W b (i 0) (i 1)

/-- The new hidden state as a whole array. -/
def hiddenArr (x h cell : Rows.Idx → EReal) (W : Wts.Idx → EReal) (b : Bias.Idx → EReal) : Rows.Idx → EReal :=
  fun i => newHidden x h cell W b (i 0) (i 1)

theorem cellArr_ix2 (x h cell : Rows.Idx → EReal) (W : Wts.Idx → EReal) (b : Bias.Idx → EReal) (r : Fin 8192) (j : Fin 1024) :
    cellArr x h cell W b (ix2 r j) = newCell x h cell W b r j := rfl

theorem hiddenArr_ix2 (x h cell : Rows.Idx → EReal) (W : Wts.Idx → EReal) (b : Bias.Idx → EReal) (r : Fin 8192) (j : Fin 1024) :
    hiddenArr x h cell W b (ix2 r j) = newHidden x h cell W b r j := rfl

end Cert.LstmCell

end
-- ==== Proof.TileValue.lean ====
/-
  The cell kernel's arithmetic on one batch tile, read at one element, on the extended reals.

  The body sees a tile of 256 input rows `x0`, 256 hidden rows `x1`, the weight matrix as its upper half `wU` (the 1024
  rows that meet an input row) and its lower half `wL` (the 1024 rows that meet a hidden row), the bias row `bR`, and
  256 cell rows `x4`. Its first payload is the 256 × 4096 array of pre-activations: two matrix products into zero
  accumulators, added, plus the bias row repeated down the rows. At the ideal instance a matrix product into a zero
  accumulator is, element by element, the plain sum over the contracted axis of the products, narrowing to bf16 is the
  identity, and a shape cast to the same shape is the identity; so element (p, c) of the pre-activations is

      ∑ k < 1024, x0 p k · wU k c  +  ∑ k < 1024, x1 p k · wL k c  +  bR 0 c.

  The other two payloads cut that array into four bands of 1024 columns (forget, input, candidate, output), apply the
  logistic function or the hyperbolic tangent entry by entry, and combine with the cell rows; every step but the
  four cuts acts on each entry by itself.
-/
import proofs.«155004_j27736898798344_2_alg».proof.Proof.Gen.KernelIdeal.Skeleton
import proofs.«155004_j27736898798344_2_alg».proof.Proof.CellSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Cert.LstmCell Idealize.ShloMosaic Idealize.ShloMosaic.ValueIdx

/-- The dimension numbers of both matrix products: rows × contraction times contraction × columns, no batch axis. -/
abbrev D : DotDims S256x1024 S1024x4096 S256x4096 := dot_S256x1024_S1024x4096_S256x4096_1_0_0_1_n_n

/-! The operand indices of the product at output index `i` and contraction index `q`: (row of `i`, `q`) on the left,
    (`q`, column of `i`) on the right. -/
theorem lhs_row (i : S256x4096.Idx) (q : D.contr.Idx) : (D.lhsIdx i q 0).val = (i 0).val := by
  unfold DotDims.lhsIdx
  rw [dif_neg (show ¬(0 : Fin S256x1024.rank) ∈ D.lhsBatch by decide), dif_pos (show (0 : Fin S256x1024.rank) ∈ D.lhsNonContracting by decide)]
  rfl
theorem lhs_contr (i : S256x4096.Idx) (q : D.contr.Idx) : (D.lhsIdx i q 1).val = (q ⟨0, by decide⟩).val :=
  D.lhsIdx_val_of_single rfl i q
theorem rhs_contr (i : S256x4096.Idx) (q : D.contr.Idx) : (D.rhsIdx i q 0).val = (q ⟨0, by decide⟩).val :=
  D.rhsIdx_val_of_single rfl i q
theorem rhs_col (i : S256x4096.Idx) (q : D.contr.Idx) : (D.rhsIdx i q 1).val = (i 1).val := by
  unfold DotDims.rhsIdx
  rw [dif_neg (show ¬(1 : Fin S1024x4096.rank) ∈ D.rhsBatch by decide), dif_pos (show (1 : Fin S1024x4096.rank) ∈ D.rhsNonContracting by decide)]
  rfl

/-- A matrix product into a zero accumulator, at element (p, c): the sum over the 1024 contracted positions of the
    products of row `p` of the left operand with column `c` of the right. -/
theorem product_apply (a : FVec Ideal S256x1024 .bf16) (w : FVec Ideal S1024x4096 .bf16) (p : Fin 256) (c : Fin 4096) :
    matmul D none a w (constant (F := Ideal) S256x4096 .f32 0x00000000#32) (ix2 p c) = ∑ k : Fin 1024, a (ix2 p k) * w (ix2 k c) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p c) ((contrEquiv1 D 1024 rfl rfl).symm k) = ix2 p k := funext fun a => Fin.ext (by
    match a with
    | ⟨0, _⟩ => exact lhs_row _ _
    | ⟨1, _⟩ => exact (lhs_contr _ _).trans hk)
  have er : D.rhsIdx (ix2 p c) ((contrEquiv1 D 1024 rfl rfl).symm k) = ix2 k c := funext fun a => Fin.ext (by
    match a with
    | ⟨0, _⟩ => exact (rhs_contr _ _).trans hk
    | ⟨1, _⟩ => exact rhs_col _ _)
  rw [el, er]

/-- The pre-activation of gate column `c` on row `p` of the tile. -/
def tileGate (x0 x1 : FVec Ideal S256x1024 .f32) (wU wL : FVec Ideal S1024x4096 .bf16) (bR : FVec Ideal S1x4096 .f32)
    (p : Fin 256) (c : Fin 4096) : EReal :=
  ((∑ k : Fin 1024, x0 (ix2 p k) * wU (ix2 k c)) + (∑ k : Fin 1024, x1 (ix2 p k) * wL (ix2 k c))) + bR (ix2 (0 : Fin 1) c)

/-- The body's first payload at element (p, c) is that pre-activation. -/
theorem pay1_apply (x0 x1 : FVec Ideal S256x1024 .f32) (wU wL : FVec Ideal S1024x4096 .bf16) (bR : FVec Ideal S1x4096 .f32)
    (p : Fin 256) (c : Fin 4096) :
    k0_pay1 (F := Ideal) x0 x1 wU wL bR (ix2 p c) = tileGate x0 x1 wU wL bR p c := by
  unfold k0_pay1 tileGate
  rw [addf_apply, addf_apply]
  refine congrArg₂ (· + ·) (congrArg₂ (· + ·) ?_ ?_) ?_
  · refine (product_apply _ _ p c).trans (Finset.sum_congr rfl fun k _ => ?_)
    rw [shapeCast_self]; rfl
  · refine (product_apply _ _ p c).trans (Finset.sum_congr rfl fun k _ => ?_)
    rw [shapeCast_self]; rfl
  · rw [shapeCast_self]
    exact broadcastTo_1b_ab_apply _ _ p c

/-- Band `g` of the pre-activations (its 1024 columns from column 1024 · g on), at element (p, j). -/
theorem band_apply (g : Fin 4) (v : FVec Ideal S256x4096 .f32) (h : S256x4096.Slices ![0, 1024 * g.val] S256x1024)
    (p : Fin 256) (j : Fin 1024) :
    extractStridedSlice S256x1024 ![0, 1024 * g.val] v h (ix2 p j) = v (ix2 p (band g j)) :=
  slice2_axis1_apply (1024 * g.val) v h p j (band g j) rfl

/-- The new cell state on the tile, at row `p`, feature `j`. -/
def tileCell (x0 x1 : FVec Ideal S256x1024 .f32) (wU wL : FVec Ideal S1024x4096 .bf16) (bR : FVec Ideal S1x4096 .f32)
    (x4 : FVec Ideal S256x1024 .f32) (p : Fin 256) (j : Fin 1024) : EReal :=
  Ideal.logistic (tileGate x0 x1 wU wL bR p (band 0 j)) * x4 (ix2 p j)
    + Ideal.logistic (tileGate x0 x1 wU wL bR p (band 1 j)) * Ideal.tanh (tileGate x0 x1 wU wL bR p (band 2 j))

/-- The new hidden state on the tile, at row `p`, feature `j`. -/
def tileHidden (x0 x1 : FVec Ideal S256x1024 .f32) (wU wL : FVec Ideal S1024x4096 .bf16) (bR : FVec Ideal S1x4096 .f32)
    (x4 : FVec Ideal S256x1024 .f32) (p : Fin 256) (j : Fin 1024) : EReal :=
  Ideal.logistic (tileGate x0 x1 wU wL bR p (band 3 j)) * Ideal.tanh (tileCell x0 x1 wU wL bR x4 p j)

/-- The body's second payload (stored into the cell output) at element (p, j). -/
theorem pay2_apply (x0 x1 : FVec Ideal S256x1024 .f32) (wU wL : FVec Ideal S1024x4096 .bf16) (bR : FVec Ideal S1x4096 .f32)
    (x4 : FVec Ideal S256x1024 .f32) (p : Fin 256) (j : Fin 1024) :
    k0_pay2 (F := Ideal) x0 x1 wU wL bR x4 (ix2 p j) = tileCell x0 x1 wU wL bR x4 p j := by
  unfold k0_pay2 tileCell
  rw [addf_apply, mulf_apply, mulf_apply]
  refine congrArg₂ (· + ·) (congrArg₂ (· * ·) (congrArg Ideal.logistic ?_) rfl)
    (congrArg₂ (· * ·) (congrArg Ideal.logistic ?_) (congrArg Ideal.tanh ?_))
  · exact (band_apply 0 _ _ p j).trans (pay1_apply x0 x1 wU wL bR p (band 0 j))
  · exact (band_apply 1 _ _ p j).trans (pay1_apply x0 x1 wU wL bR p (band 1 j))
  · exact (band_apply 2 _ _ p j).trans (pay1_apply x0 x1 wU wL bR p (band 2 j))

/-- The body's third payload (stored into the hidden output) at element (p, j). -/
theorem pay3_apply (x0 x1 : FVec Ideal S256x1024 .f32) (wU wL : FVec Ideal S1024x4096 .bf16) (bR : FVec Ideal S1x4096 .f32)
    (x4 : FVec Ideal S256x1024 .f32) (p : Fin 256) (j : Fin 1024) :
    k0_pay3 (F := Ideal) x0 x1 wU wL bR x4 (ix2 p j) = tileHidden x0 x1 wU wL bR x4 p j := by
  unfold k0_pay3 tileHidden
  rw [mulf_apply]
  refine congrArg₂ (· * ·) (congrArg Ideal.logistic ?_) (congrArg Ideal.tanh ?_)
  · exact (band_apply 3 _ _ p j).trans (pay1_apply x0 x1 wU wL bR p (band 3 j))
  · exact pay2_apply x0 x1 wU wL bR x4 p j

end Cert.KernelIdeal.TileValue

end
-- ==== Proof.CellValue.lean ====
/-
  What the cell kernel's two result arrays hold after the run, at the ideal instance: the specification's arrays.

  The region writes each result back tile by tile: point `t` of the 32 writes rows 256·t … 256·t + 255. What it writes
  there is the body's tile value of the input blocks at `t`; the input, hidden and cell blocks at `t` are the same 256
  rows of their arrays, and the weight block and the bias block are the whole weight matrix and the whole bias row at
  every point. So element (p, j) of the tile written at `t` is the specification at row 256·t + p, feature `j`, of the
  arrays as the region finds them, and since the 32 tiles cover every row, each result array ends holding the
  specification's whole array. The arrays the region finds are the launch arguments, the four weight matrices side by
  side (narrowing to bf16 is the identity here) and the four biases end to end, laid out as one row.
-/
import proofs.«155004_j27736898798344_2_alg».proof.Proof.IdealFrame
import proofs.«155004_j27736898798344_2_alg».proof.Proof.TileValue
import proofs.«155004_j27736898798344_2_alg».proof.Proof.CellSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.CellValue

open Cert.KernelIdeal Cert.KernelIdeal.Gen Cert.KernelIdeal.CellFrame Cert.KernelIdeal.TileValue Cert.LstmCell
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The bias as the specification indexes it, from the one-row array the kernel is handed. -/
def biasOf (row : S1x4096.Idx → EReal) : Bias.Idx → EReal := fun i => row (ix2 (0 : Fin 1) (i 0))

/-- The printed index maps, decided over the 32 points: the three row-tiled inputs and both outputs are at block
    (t, 0), the weight matrix and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of the tile at point `t`, as a row of the whole batch. -/
def rowOf (t : Fin cfg0.N) (p : Fin 256) : Fin 8192 :=
  ⟨t.val * 256 + p.val, by have h := t.isLt; have hN : cfg0.N = 32 := N_0; have := p.isLt; omega⟩

/-! ## The blocks, read where the tile's element sits -/

theorem read0 (c : Dev nD) (t : Fin cfg0.N) (p : Fin 256) (k : Fin 1024) :
    iblk m c 0 t (ix2 p k) = V m c main_arg0 (ix2 (rowOf t p) k) := by
  obtain ⟨e0, e1, -⟩ := idx_facts t
  have h : ((cfg0.win 0).blk t).view.emb (ix2 p k) = ix2 (rowOf t p) k := by
    funext a; apply Fin.ext
    match a with
    | ⟨0, _⟩ => show win0_0.index t (0 : Fin 2) * 256 + 1 * p.val = t.val * 256 + p.val; omega
    | ⟨1, _⟩ => show win0_0.index t (1 : Fin 2) * 1024 + 1 * k.val = k.val; omega
  show V m c main_arg0 (((cfg0.win 0).blk t).view.emb (ix2 p k)) = _
  rw [h]

theorem read1 (c : Dev nD) (t : Fin cfg0.N) (p : Fin 256) (k : Fin 1024) :
    iblk m c 1 t (ix2 p k) = V m c main_arg1 (ix2 (rowOf t p) k) := by
  obtain ⟨-, -, e0, e1, -⟩ := idx_facts t
  have h : ((cfg0.win 1).blk t).view.emb (ix2 p k) = ix2 (rowOf t p) k := by
    funext a; apply Fin.ext
    match a with
    | ⟨0, _⟩ => show win0_1.index t (0 : Fin 2) * 256 + 1 * p.val = t.val * 256 + p.val; omega
    | ⟨1, _⟩ => show win0_1.index t (1 : Fin 2) * 1024 + 1 * k.val = k.val; omega
  show V m c main_arg1 (((cfg0.win 1).blk t).view.emb (ix2 p k)) = _
  rw [h]

theorem read4 (c : Dev nD) (t : Fin cfg0.N) (p : Fin 256) (k : Fin 1024) :
    iblk m c 4 t (ix2 p k) = V m c main_arg2 (ix2 (rowOf t p) k) := by
  obtain ⟨-, -, -, -, -, -, -, -, e0, e1, -⟩ := idx_facts t
  have h : ((cfg0.win 4).blk t).view.emb (ix2 p k) = ix2 (rowOf t p) k := by
    funext a; apply Fin.ext
    match a with
    | ⟨0, _⟩ => show win0_4.index t (0 : Fin 2) * 256 + 1 * p.val = t.val * 256 + p.val; omega
    | ⟨1, _⟩ => show win0_4.index t (1 : Fin 2) * 1024 + 1 * k.val = k.val; omega
  show V m c main_arg2 (((cfg0.win 4).blk t).view.emb (ix2 p k)) = _
  rw [h]

/-- The weight block is the whole matrix: its upper half at (k, c) is the matrix at row `k`, -/
theorem readUpper (c : Dev nD) (t : Fin cfg0.N) (k : Fin 1024) (cc : Fin 4096) :
    View.ld (iblk m c 2 t) rUpper (ix2 k cc) = V m c main_v1 (ix2 (upper k) cc) := by
  obtain ⟨-, -, -, -, e0, e1, -⟩ := idx_facts t
  have h : ((cfg0.win 2).blk t).view.emb (rUpper.idx (ix2 k cc)) = ix2 (upper k) cc := by
    funext a; apply Fin.ext
    match a with
    | ⟨0, _⟩ => show win0_2.index t (0 : Fin 2) * 2048 + 1 * (0 + 1 * k.val) = k.val; omega
    | ⟨1, _⟩ => show win0_2.index t (1 : Fin 2) * 4096 + 1 * (0 + 1 * cc.val) = cc.val; omega
  show V m c main_v1 (((cfg0.win 2).blk t).view.emb (rUpper.idx (ix2 k cc))) = _
  rw [h]

/-- and its lower half at (k, c) the matrix at row 1024 + `k`. -/
theorem readLower (c : Dev nD) (t : Fin cfg0.N) (k : Fin 1024) (cc : Fin 4096) :
    View.ld (iblk m c 2 t) rLower (ix2 k cc) = V m c main_v1 (ix2 (lower k) cc) := by
  obtain ⟨-, -, -, -, e0, e1, -⟩ := idx_facts t
  have h : ((cfg0.win 2).blk t).view.emb (rLower.idx (ix2 k cc)) = ix2 (lower k) cc := by
    funext a; apply Fin.ext
    match a with
    | ⟨0, _⟩ => show win0_2.index t (0 : Fin 2) * 2048 + 1 * (1024 + 1 * k.val) = 1024 + k.val; omega
    | ⟨1, _⟩ => show win0_2.index t (1 : Fin 2) * 4096 + 1 * (0 + 1 * cc.val) = cc.val; omega
  show V m c main_v1 (((cfg0.win 2).blk t).view.emb (rLower.idx (ix2 k cc))) = _
  rw [h]

/-- The bias block is the whole bias row. -/
theorem read3 (c : Dev nD) (t : Fin cfg0.N) (cc : Fin 4096) :
    iblk m c 3 t (ix2 (0 : Fin 1) cc) = biasOf (V m c main_v3) (ix1 cc) := by
  obtain ⟨-, -, -, -, -, -, e0, e1, -⟩ := idx_facts t
  have h : ((cfg0.win 3).blk t).view.emb (ix2 (0 : Fin 1) cc) = ix2 (0 : Fin 1) cc := by
    funext a; apply Fin.ext
    match a with
    | ⟨0, _⟩ => show win0_3.index t (0 : Fin 2) * 1 + 1 * 0 = 0; omega
    | ⟨1, _⟩ => show win0_3.index t (1 : Fin 2) * 4096 + 1 * cc.val = cc.val; omega
  show V m c main_v3 (((cfg0.win 3).blk t).view.emb (ix2 (0 : Fin 1) cc)) = _
  rw [h]
  rfl

/-! ## A tile's element is the specification's at its row -/

/-- The arrays of the specification, as the region finds them. -/
abbrev gateAt (c : Dev nD) (r : Fin 8192) (cc : Fin 4096) : EReal :=
  gate (V m c main_arg0) (V m c main_arg1) (V m c main_v1) (biasOf (V m c main_v3)) r cc

theorem tileGate_eq (c : Dev nD) (t : Fin cfg0.N) (p : Fin 256) (cc : Fin 4096) :
    tileGate (iblk m c 0 t) (iblk m c 1 t) (View.ld (iblk m c 2 t) rUpper) (View.ld (iblk m c 2 t) rLower) (iblk m c 3 t) p cc
      = gateAt m c (rowOf t p) cc := by
  unfold tileGate gateAt gate
  refine congrArg₂ (· + ·) (congrArg₂ (· + ·) (Finset.sum_congr rfl fun k _ => ?_) (Finset.sum_congr rfl fun k _ => ?_)) ?_
  · rw [read0, readUpper]
  · rw [read1, readLower]
  · exact read3 m c t cc

theorem tileCell_eq (c : Dev nD) (t : Fin cfg0.N) (p : Fin 256) (j : Fin 1024) :
    tileCell (iblk m c 0 t) (iblk m c 1 t) (View.ld (iblk m c 2 t) rUpper) (View.ld (iblk m c 2 t) rLower) (iblk m c 3 t) (iblk m c 4 t) p j
      = newCell (V m c main_arg0) (V m c main_arg1) (V m c main_arg2) (V m c main_v1) (biasOf (V m c main_v3)) (rowOf t p) j := by
  unfold tileCell newCell
  rw [tileGate_eq, tileGate_eq, tileGate_eq, read4]

theorem tileHidden_eq (c : Dev nD) (t : Fin cfg0.N) (p : Fin 256) (j : Fin 1024) :
    tileHidden (iblk m c 0 t) (iblk m c 1 t) (View.ld (iblk m c 2 t) rUpper) (View.ld (iblk m c 2 t) rLower) (iblk m c 3 t) (iblk m c 4 t) p j
      = newHidden (V m c main_arg0) (V m c main_arg1) (V m c main_arg2) (V m c main_v1) (biasOf (V m c main_v3)) (rowOf t p) j := by
  unfold tileHidden newHidden
  rw [tileGate_eq, tileCell_eq]

/-! ## What each point writes back -/

/-- The tile's element (p, j) sits in the array at row 256·t + p, column j (the two result windows move alike). -/
theorem emb5 (t : Fin cfg0.N) (p : Fin 256) (j : Fin 1024) : ((cfg0.win 5).blk t).view.emb (ix2 p j) = ix2 (rowOf t p) j := by
  obtain ⟨-, -, -, -, -, -, -, -, -, -, e0, e1, -⟩ := idx_facts t
  funext a; apply Fin.ext
  match a with
  | ⟨0, _⟩ => show win0_5.index t (0 : Fin 2) * 256 + 1 * p.val = t.val * 256 + p.val; omega
  | ⟨1, _⟩ => show win0_5.index t (1 : Fin 2) * 1024 + 1 * j.val = j.val; omega
theorem emb6 (t : Fin cfg0.N) (p : Fin 256) (j : Fin 1024) : ((cfg0.win 6).blk t).view.emb (ix2 p j) = ix2 (rowOf t p) j := by
  obtain ⟨-, -, -, -, -, -, -, -, -, -, -, -, e0, e1⟩ := idx_facts t
  funext a; apply Fin.ext
  match a with
  | ⟨0, _⟩ => show win0_6.index t (0 : Fin 2) * 256 + 1 * p.val = t.val * 256 + p.val; omega
  | ⟨1, _⟩ => show win0_6.index t (1 : Fin 2) * 1024 + 1 * j.val = j.val; omega

/-- The specification's hidden array over the arrays the region finds. -/
abbrev hiddenAt (c : Dev nD) : Rows.Idx → EReal :=
  hiddenArr (V m c main_arg0) (V m c main_arg1) (V m c main_arg2) (V m c main_v1) (biasOf (V m c main_v3))
/-- The specification's cell array over the arrays the region finds. -/
abbrev cellAt (c : Dev nD) : Rows.Idx → EReal :=
  cellArr (V m c main_arg0) (V m c main_arg1) (V m c main_arg2) (V m c main_v1) (biasOf (V m c main_v3))

/-- Point `t` writes back, into the hidden result, tile `t` of the specification's hidden array. -/
theorem flushed5_eq (c : Dev nD) (t : Fin cfg0.N) :
    (dats m 0 c).flushed 5 t = ((cfg0.win 5).blk t).view.read (Elt Ideal) (hiddenAt m c) := by
  show (cfg0.win 5).cut (grid0.coords t) ((dats m 0 c).after 5 t) = _
  rw [after5]
  unfold hiddenTile
  rw [View.canon_unit_zero hz]
  simp only [View.ld_unit_zero (S := S256x1024) hz, View.ld_unit_zero (S := S1x4096) hz]
  funext y
  obtain ⟨p, j, rfl⟩ : ∃ (p : Fin 256) (j : Fin 1024), y = ix2 p j := ⟨y 0, y 1, eq_ix2 y⟩
  refine (pay3_apply _ _ _ _ _ _ p j).trans ?_
  refine (tileHidden_eq m c t p j).trans ?_
  show _ = hiddenAt m c (((cfg0.win 5).blk t).view.emb (ix2 p j))
  rw [emb5]
  rfl

/-- Point `t` writes back, into the cell result, tile `t` of the specification's cell array. -/
theorem flushed6_eq (c : Dev nD) (t : Fin cfg0.N) :
    (dats m 0 c).flushed 6 t = ((cfg0.win 6).blk t).view.read (Elt Ideal) (cellAt m c) := by
  show (cfg0.win 6).cut (grid0.coords t) ((dats m 0 c).after 6 t) = _
  rw [after6]
  unfold cellTile
  rw [View.canon_unit_zero hz]
  simp only [View.ld_unit_zero (S := S256x1024) hz, View.ld_unit_zero (S := S1x4096) hz]
  funext y
  obtain ⟨p, j, rfl⟩ : ∃ (p : Fin 256) (j : Fin 1024), y = ix2 p j := ⟨y 0, y 1, eq_ix2 y⟩
  refine (pay2_apply _ _ _ _ _ _ p j).trans ?_
  refine (tileCell_eq m c t p j).trans ?_
  show _ = cellAt m c (((cfg0.win 6).blk t).view.emb (ix2 p j))
  rw [emb6]
  rfl

/-! ## The tiles cover the arrays -/

theorem mem_blk5 (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4_0).slice (win0_5.rect t)).set ↔ _
  rw [View.set_slice_whole, Rect.mem_set_unit]
  exact Iff.rfl
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v4_1).slice (win0_6.rect t)).set ↔ _
  rw [View.set_slice_whole, Rect.mem_set_unit]
  exact Iff.rfl

/-- Row `r` lies in the tile of point `r / 256`. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 32 := N_0
  have ht : (i 0).val / 256 < cfg0.N := by omega
  obtain ⟨-, -, -, -, -, -, -, -, -, -, e0, e1, -⟩ := idx_facts ⟨(i 0).val / 256, ht⟩
  refine ⟨⟨(i 0).val / 256, ht⟩, flush0_5 _, ?_⟩
  rw [mem_blk5]
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, ht⟩ (1 : Fin 2) * 1024 ≤ (i 1).val ∧ (i 1).val < win0_5.index ⟨(i 0).val / 256, ht⟩ (1 : Fin 2) * 1024 + 1024
    rw [e1]; omega
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  have ht : (i 0).val / 256 < cfg0.N := by omega
  obtain ⟨-, -, -, -, -, -, -, -, -, -, -, -, e0, e1⟩ := idx_facts ⟨(i 0).val / 256, ht⟩
  refine ⟨⟨(i 0).val / 256, ht⟩, flush0_6 _, ?_⟩
  rw [mem_blk6]
  intro a
  match a with
  | ⟨0, _⟩ =>
    show win0_6.index ⟨(i 0).val / 256, ht⟩ (0 : Fin 2) * 256 ≤ (i 0).val ∧ (i 0).val < win0_6.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, ht⟩ (1 : Fin 2) * 1024 ≤ (i 1).val ∧ (i 1).val < win0_6.index ⟨(i 0).val / 256, ht⟩ (1 : Fin 2) * 1024 + 1024
    rw [e1]; omega

/-- After the run the hidden result holds the specification's hidden array, -/
theorem final5 (c : Dev nD) : (dats m 0 c).arrAt 5 cfg0.N = hiddenAt m c :=
  (dats m 0 c).arrAt_eq_of_cover 5 (hiddenAt m c) (fun t _ => flushed5_eq m c t) cover5
/-- and the cell result the specification's cell array, over the arrays the region finds. -/
theorem final6 (c : Dev nD) : (dats m 0 c).arrAt 6 cfg0.N = cellAt m c :=
  (dats m 0 c).arrAt_eq_of_cover 6 (cellAt m c) (fun t _ => flushed6_eq m c t) cover6

/-! ## The arrays the region finds, from the launch arguments -/

/-- The four gates' weight matrices side by side, as launched. -/
def weights (c : Dev nD) : S2048x4096.Idx → EReal :=
  concatenate S2048x4096 1 [⟨S2048x1024, (m ((c.tc : Thread nD τ).loc main_arg3))⟩, ⟨S2048x1024, (m ((c.tc : Thread nD τ).loc main_arg5))⟩, ⟨S2048x1024, (m ((c.tc : Thread nD τ).loc main_arg7))⟩, ⟨S2048x1024, (m ((c.tc : Thread nD τ).loc main_arg9))⟩] concatenates_S2048x1024_S2048x1024_S2048x1024_S2048x1024_S2048x4096_d1

/-- The four gates' biases end to end, as launched. -/
def biases (c : Dev nD) : S4096.Idx → EReal :=
  concatenate S4096 0 [⟨S1024, (m ((c.tc : Thread nD τ).loc main_arg4))⟩, ⟨S1024, (m ((c.tc : Thread nD τ).loc main_arg6))⟩, ⟨S1024, (m ((c.tc : Thread nD τ).loc main_arg8))⟩, ⟨S1024, (m ((c.tc : Thread nD τ).loc main_arg10))⟩] concatenates_S1024_S1024_S1024_S1024_S4096_d0

/-- The weight operand the region finds is the matrices side by side: the host narrows them to bf16, which changes
    nothing on the extended reals. -/
theorem V_weights (c : Dev nD) : (V m c main_v1 : S2048x4096.Idx → EReal) = weights m c := by
  have e : @Eq (S2048x4096.Idx → EReal) (V m c main_v1) (truncf (F := Ideal) (s := S2048x4096) (φ := .f32) .bf16 (weights m c) bitsLt_bf16_f32) := by
    dsimp only [V, hostOps0]; after_results; rfl
  exact e.trans rfl

/-- The bias operand the region finds is the biases end to end, laid out as one row. -/
theorem V_biases (c : Dev nD) : biasOf (V m c main_v3) = biases m c := by
  have e : @Eq (S1x4096.Idx → EReal) (V m c main_v3) (shapeCast S1x4096 (biases m c) shapeCasts_S4096_S1x4096) := by
    dsimp only [V, hostOps0]; after_results; rfl
  funext i
  obtain ⟨cc, rfl⟩ : ∃ cc : Fin 4096, i = ix1 cc := ⟨i 0, eq_ix1 i⟩
  show V m c main_v3 (ix2 (0 : Fin 1) cc) = _
  rw [e]
  exact shapeCast_a_1a_apply _ _ 0 cc

/-! ## The run, read -/

/-- Every weakly fair execution of the kernel's @main at the ideal instance terminates with the hidden result and the
    cell result at the specification's arrays of the launch arguments, and the arguments unchanged. -/
theorem run : θ_run defs (onTc (τ := τ) (main (F := Ideal))) ⟨m, fun _ => 0, ρ⟩ fun r => ∀ c : Dev nD,
      r.2.mem ((c.tc : Thread nD τ).loc main_v4_0) = hiddenArr (m ((c.tc : Thread nD τ).loc main_arg0)) (m ((c.tc : Thread nD τ).loc main_arg1)) (m ((c.tc : Thread nD τ).loc main_arg2)) (weights m c) (biases m c)
      ∧ r.2.mem ((c.tc : Thread nD τ).loc main_v4_1) = cellArr (m ((c.tc : Thread nD τ).loc main_arg0)) (m ((c.tc : Thread nD τ).loc main_arg1)) (m ((c.tc : Thread nD τ).loc main_arg2)) (weights m c) (biases m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans ((final5 m c).trans (by
        show hiddenArr (V m c main_arg0) (V m c main_arg1) (V m c main_arg2) (V m c main_v1) (biasOf (V m c main_v3)) = _
        rw [V_main_arg0, V_main_arg1, V_main_arg2, V_weights, V_biases])),
      ((h c).1 6).trans ((final6 m c).trans (by
        show cellArr (V m c main_arg0) (V m c main_arg1) (V m c main_arg2) (V m c main_v1) (biasOf (V m c main_v3)) = _
        rw [V_main_arg0, V_main_arg1, V_main_arg2, V_weights, V_biases])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.CellValue

end
-- ==== Proof.RefIsCell.lean ====
/-
  The jnp reference of the long short-term memory cell is the cell specification.

  The reference joins each batch row's input and hidden vectors into one row of 2048 entries, multiplies it by the
  2048 × 4096 matrix made of the four gates' weight matrices side by side, adds the four biases laid end to end, cuts
  the 4096 columns into four bands of 1024, and applies 1 / (1 + e^(-g)) to three of the bands and tanh to the fourth.
  Index by index this is the specification's cell: the joined row's first 1024 entries are the input's and its last
  1024 the hidden state's, so the 2048-term sum is the sum of the two 1024-term sums; and 1 / (1 + e^(-g)) is the
  logistic function on the extended reals, by definition. The weight matrix and the bias stay closed throughout.
-/
import proofs.«155004_j27736898798344_2_alg».proof.Proof.Gen.ReferenceIdeal.Read
import proofs.«155004_j27736898798344_2_alg».proof.Proof.CellSpec
import Idealize.ShloMosaic.Lib.ValueIdx
import Idealize.ShloMosaic.Lib.Pipeline.Value
import Idealize.ShloMosaic.PureOps.Ideal.Laws

noncomputable section

open scoped BigOperators

namespace Cert.RefIsCell

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.LstmCell

/-- The four gates' weight matrices side by side. -/
def Wcat (x3 x5 x7 x9 : (⟨S2048x1024, .f32⟩ : BufTy).Contents (Elt Ideal)) : (⟨S2048x4096, .f32⟩ : BufTy).Contents (Elt Ideal) :=
  concatenate S2048x4096 1 [⟨S2048x1024, x3⟩, ⟨S2048x1024, x5⟩, ⟨S2048x1024, x7⟩, ⟨S2048x1024, x9⟩] concatenates_S2048x1024_S2048x1024_S2048x1024_S2048x1024_S2048x4096_d1

/-- The four gates' biases end to end. -/
def bcat (x4 x6 x8 x10 : (⟨S1024, .f32⟩ : BufTy).Contents (Elt Ideal)) : (⟨S4096, .f32⟩ : BufTy).Contents (Elt Ideal) :=
  concatenate S4096 0 [⟨S1024, x4⟩, ⟨S1024, x6⟩, ⟨S1024, x8⟩, ⟨S1024, x10⟩] concatenates_S1024_S1024_S1024_S1024_S4096_d0

/-- The reference's weight operand is the four matrices side by side. -/
theorem val_main_v1_eq (x3 x5 x7 x9 : (⟨S2048x1024, .f32⟩ : BufTy).Contents (Elt Ideal)) :
    val_main_v1 (F := Ideal) x3 x5 x7 x9 = Wcat x3 x5 x7 x9 := rfl

/-- The reference's bias operand is the four biases end to end. -/
theorem val_main_v2_eq (x4 x6 x8 x10 : (⟨S1024, .f32⟩ : BufTy).Contents (Elt Ideal)) :
    val_main_v2 (F := Ideal) x4 x6 x8 x10 = bcat x4 x6 x8 x10 := rfl

/-- The float pattern of 1.0 denotes the extended real 1. -/
theorem ofBits_one : Ideal.ofBits .f32 0x3F800000#32 = 1 := by
  simp [Ideal.ofBits, Ideal.ieee, -EReal.coe_mul]; norm_num

/-- The joined row's entry `k` of the first 1024 is the input's entry `k`. -/
theorem row_upper (x h : (⟨S8192x1024, .f32⟩ : BufTy).Contents (Elt Ideal)) (r : Fin 8192) (k : Fin 1024) :
    val_main_v0 (F := Ideal) x h (ix2 r (upper k)) = x (ix2 r k) :=
  concatenate_pair_apply_left (1 : Fin 2) x h concatenates_S8192x1024_S8192x1024_S8192x2048_d1 (ix2 r (upper k)) rfl (ix2 r k)
    (fun b => match b with | ⟨0, _⟩ => rfl | ⟨1, _⟩ => rfl)

/-- The joined row's entry `1024 + k` is the hidden state's entry `k`. -/
theorem row_lower (x h : (⟨S8192x1024, .f32⟩ : BufTy).Contents (Elt Ideal)) (r : Fin 8192) (k : Fin 1024) :
    val_main_v0 (F := Ideal) x h (ix2 r (lower k)) = h (ix2 r k) :=
  concatenate_pair_apply_right (1 : Fin 2) x h concatenates_S8192x1024_S8192x1024_S8192x2048_d1 (ix2 r (lower k)) rfl rfl (ix2 r k)
    (fun b hb => match b, hb with | ⟨0, _⟩, _ => rfl | ⟨1, _⟩, hb => absurd rfl hb)
    (by show k.val + 1024 = 1024 + k.val; omega)

/-- A sum over 2048 = 1024 + 1024 terms is the sum over the first 1024 plus the sum over the last 1024. -/
theorem sum_split (f : Fin 2048 → EReal) :
    ∑ k : Fin 2048, f k = (∑ k : Fin 1024, f (upper k)) + ∑ k : Fin 1024, f (lower k) :=
  Fin.sum_univ_add (a := 1024) (b := 1024) f

/-- The pre-activation: the reference's sum over the joined row plus the broadcast bias is the specification's gate. -/
theorem gate_eq (x h : (⟨S8192x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) (r : Fin 8192) (c : Fin 4096) :
    val_main_v6 (F := Ideal) x h x3 x4 x5 x6 x7 x8 x9 x10 (ix2 r c)
      = gate x h (Wcat x3 x5 x7 x9) (bcat x4 x6 x8 x10) r c := by
  have eL : ∀ k : Fin 2048, lidx_main_v3 (ix2 r c) k = ix2 r k := fun k => funext fun a => Fin.ext (by
    match a with | ⟨0, _⟩ => rfl | ⟨1, _⟩ => rfl)
  have eR : ∀ k : Fin 2048, ridx_main_v3 (ix2 r c) k = ix2 k c := fun k => funext fun a => Fin.ext (by
    match a with | ⟨0, _⟩ => rfl | ⟨1, _⟩ => rfl)
  have eB : idx_main_v4 (idx_main_v5 (ix2 r c)) = ix1 c := funext fun a => Fin.ext (by
    match a with | ⟨0, _⟩ => rfl)
  rw [val_main_v6_apply, val_main_v3_apply, val_main_v5_apply, val_main_v4_apply, eB, val_main_v1_eq, val_main_v2_eq]
  generalize Wcat x3 x5 x7 x9 = W
  generalize bcat x4 x6 x8 x10 = b
  simp only [eL, eR]
  rw [sum_split]
  simp only [row_upper, row_lower, Ideal.addf_def]
  rfl

/-- The reference's spelling 1 / (1 + e^(-g)), with the host's operations and the float pattern of 1.0, is the logistic
    function on the extended reals: that function is defined as this quotient. -/
theorem logistic_spelling (g : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf g)))
      = Ideal.logistic g := by
  simp only [Ideal.hostDivf_def, Ideal.addf_def, Ideal.hostUnary_exp_def, Ideal.hostNegf_def, Ideal.negf_def, Ideal.ofBits_def,
    ofBits_one]
  rfl

/-- The four slices read the pre-activation at the four bands' columns. -/
theorem band0_idx (r : Fin 8192) (j : Fin 1024) : idx_main_v7 (ix2 r j) = ix2 r (band 0 j) := funext fun a => Fin.ext (by
  match a with
  | ⟨0, _⟩ => rfl
  | ⟨1, _⟩ => show j.val = 1024 * 0 + j.val; omega)
theorem band1_idx (r : Fin 8192) (j : Fin 1024) : idx_main_v8 (ix2 r j) = ix2 r (band 1 j) := funext fun a => Fin.ext (by
  match a with
  | ⟨0, _⟩ => rfl
  | ⟨1, _⟩ => show 1024 + j.val = 1024 * 1 + j.val; omega)
theorem band2_idx (r : Fin 8192) (j : Fin 1024) : idx_main_v9 (ix2 r j) = ix2 r (band 2 j) := funext fun a => Fin.ext (by
  match a with
  | ⟨0, _⟩ => rfl
  | ⟨1, _⟩ => show 2048 + j.val = 1024 * 2 + j.val; omega)
theorem band3_idx (r : Fin 8192) (j : Fin 1024) : idx_main_v10 (ix2 r j) = ix2 r (band 3 j) := funext fun a => Fin.ext (by
  match a with
  | ⟨0, _⟩ => rfl
  | ⟨1, _⟩ => show 3072 + j.val = 1024 * 3 + j.val; omega)

/-- The forget gate: the logistic function of the first band. -/
theorem forget_apply (x0 x1 : (⟨S8192x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) (r : Fin 8192) (j : Fin 1024) :
    val_main_v16 (F := Ideal) x0 x1 x3 x4 x5 x6 x7 x8 x9 x10 (ix2 r j) = Ideal.logistic (gate x0 x1 (Wcat x3 x5 x7 x9) (bcat x4 x6 x8 x10) r (band 0 j)) := by
  rw [val_main_v16_apply, val_main_v15_apply, val_main_cst_0_apply, val_main_v14_apply, val_main_v13_apply, val_main_cst_apply,
    val_main_v12_apply, val_main_v11_apply, val_main_v7_apply, band0_idx, gate_eq]
  exact logistic_spelling _

/-- The input gate: the logistic function of the second band. -/
theorem input_apply (x0 x1 : (⟨S8192x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) (r : Fin 8192) (j : Fin 1024) :
    val_main_v22 (F := Ideal) x0 x1 x3 x4 x5 x6 x7 x8 x9 x10 (ix2 r j) = Ideal.logistic (gate x0 x1 (Wcat x3 x5 x7 x9) (bcat x4 x6 x8 x10) r (band 1 j)) := by
  rw [val_main_v22_apply, val_main_v21_apply, val_main_cst_2_apply, val_main_v20_apply, val_main_v19_apply, val_main_cst_1_apply,
    val_main_v18_apply, val_main_v17_apply, val_main_v8_apply, band1_idx, gate_eq]
  exact logistic_spelling _

/-- The candidate: the hyperbolic tangent of the third band. -/
theorem candidate_apply (x0 x1 : (⟨S8192x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) (r : Fin 8192) (j : Fin 1024) :
    val_main_v30 (F := Ideal) x0 x1 x3 x4 x5 x6 x7 x8 x9 x10 (ix2 r j) = Ideal.tanh (gate x0 x1 (Wcat x3 x5 x7 x9) (bcat x4 x6 x8 x10) r (band 2 j)) := by
  rw [val_main_v30_apply, val_main_v9_apply, band2_idx, gate_eq]
  rfl

/-- The output gate: the logistic function of the fourth band. -/
theorem output_apply (x0 x1 : (⟨S8192x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) (r : Fin 8192) (j : Fin 1024) :
    val_main_v28 (F := Ideal) x0 x1 x3 x4 x5 x6 x7 x8 x9 x10 (ix2 r j) = Ideal.logistic (gate x0 x1 (Wcat x3 x5 x7 x9) (bcat x4 x6 x8 x10) r (band 3 j)) := by
  rw [val_main_v28_apply, val_main_v27_apply, val_main_cst_4_apply, val_main_v26_apply, val_main_v25_apply, val_main_cst_3_apply,
    val_main_v24_apply, val_main_v23_apply, val_main_v10_apply, band3_idx, gate_eq]
  exact logistic_spelling _

/-- The reference's new cell state at an index is the specification's. -/
theorem cell_apply (x0 x1 x2 : (⟨S8192x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) (r : Fin 8192) (j : Fin 1024) :
    val_main_v32 (F := Ideal) x0 x1 x2 x3 x4 x5 x6 x7 x8 x9 x10 (ix2 r j) = newCell x0 x1 x2 (Wcat x3 x5 x7 x9) (bcat x4 x6 x8 x10) r j := by
  rw [val_main_v32_apply, val_main_v29_apply, val_main_v31_apply, forget_apply, input_apply, candidate_apply]
  rfl

/-- The reference's new hidden state at an index is the specification's. -/
theorem hidden_apply (x0 x1 x2 : (⟨S8192x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) (r : Fin 8192) (j : Fin 1024) :
    val_main_v34 (F := Ideal) x0 x1 x2 x3 x4 x5 x6 x7 x8 x9 x10 (ix2 r j) = newHidden x0 x1 x2 (Wcat x3 x5 x7 x9) (bcat x4 x6 x8 x10) r j := by
  rw [val_main_v34_apply, val_main_v33_apply, output_apply, cell_apply]
  rfl

/-- The reference's new cell state is the specification's array. -/
theorem cell_eq (x0 x1 x2 : (⟨S8192x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) :
    val_main_v32 (F := Ideal) x0 x1 x2 x3 x4 x5 x6 x7 x8 x9 x10 = cellArr x0 x1 x2 (Wcat x3 x5 x7 x9) (bcat x4 x6 x8 x10) := by
  funext i
  obtain ⟨r, j, rfl⟩ : ∃ (r : Fin 8192) (j : Fin 1024), i = ix2 r j := ⟨i 0, i 1, eq_ix2 i⟩
  exact cell_apply x0 x1 x2 x3 x4 x5 x6 x7 x8 x9 x10 r j

/-- The reference's new hidden state is the specification's array. -/
theorem hidden_eq (x0 x1 x2 : (⟨S8192x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) :
    val_main_v34 (F := Ideal) x0 x1 x2 x3 x4 x5 x6 x7 x8 x9 x10 = hiddenArr x0 x1 x2 (Wcat x3 x5 x7 x9) (bcat x4 x6 x8 x10) := by
  funext i
  obtain ⟨r, j, rfl⟩ : ∃ (r : Fin 8192) (j : Fin 1024), i = ix2 r j := ⟨i 0, i 1, eq_ix2 i⟩
  exact hidden_apply x0 x1 x2 x3 x4 x5 x6 x7 x8 x9 x10 r j

/-- On every device, from any memory with zero counters, every weakly fair execution of the reference terminates with
    the new hidden state and the new cell state at the specification's arrays of the arguments' launch contents (the
    weight matrix and the bias being the reference's own concatenations of the per-gate arguments), the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34) = Cert.LstmCell.hiddenArr (m ((c.tc : Thread nD τ).loc main_arg0)) (m ((c.tc : Thread nD τ).loc main_arg1)) (m ((c.tc : Thread nD τ).loc main_arg2)) (Wcat (m ((c.tc : Thread nD τ).loc main_arg3)) (m ((c.tc : Thread nD τ).loc main_arg5)) (m ((c.tc : Thread nD τ).loc main_arg7)) (m ((c.tc : Thread nD τ).loc main_arg9))) (bcat (m ((c.tc : Thread nD τ).loc main_arg4)) (m ((c.tc : Thread nD τ).loc main_arg6)) (m ((c.tc : Thread nD τ).loc main_arg8)) (m ((c.tc : Thread nD τ).loc main_arg10)))
      ∧ r.2.mem ((c.tc : Thread nD τ).loc main_v32) = Cert.LstmCell.cellArr (m ((c.tc : Thread nD τ).loc main_arg0)) (m ((c.tc : Thread nD τ).loc main_arg1)) (m ((c.tc : Thread nD τ).loc main_arg2)) (Wcat (m ((c.tc : Thread nD τ).loc main_arg3)) (m ((c.tc : Thread nD τ).loc main_arg5)) (m ((c.tc : Thread nD τ).loc main_arg7)) (m ((c.tc : Thread nD τ).loc main_arg9))) (bcat (m ((c.tc : Thread nD τ).loc main_arg4)) (m ((c.tc : Thread nD τ).loc main_arg6)) (m ((c.tc : Thread nD τ).loc main_arg8)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c).1.trans ((val_main_v34_eq m c).trans (hidden_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))),
       (h c).2.1.trans ((val_main_v32_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).trans (cell_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))),
       (h c).2.2⟩)
    (Cert.ReferenceIdeal.Value.run (F := Ideal) m ρ)

end Cert.RefIsCell

end
-- ==== Proof.lean ====
/-
  A Pallas kernel for one step of a long short-term memory cell against its jnp reference.

  Both programs map a batch of 8192 input rows, hidden rows and cell rows, four 2048 × 1024 gate weight matrices and four
  gate biases to a new hidden state and a new cell state. On the extended reals (the ideal instance: every float an
  extended real, every operation exact, a change of float format the identity) both compute, for row r and feature j,

      g r c       = ∑ k < 1024, x r k · W k c + ∑ k < 1024, h r k · W (1024 + k) c + b c        (c < 4096)
      cell' r j   = σ (g r j) · cell r j + σ (g r (1024 + j)) · tanh (g r (2048 + j))
      hidden' r j = σ (g r (3072 + j)) · tanh (cell' r j)

  with W the four weight matrices side by side, b the four biases end to end and σ the logistic function
  (Proof/CellSpec.lean). The kernel tiles the batch into 32 tiles of 256 rows, multiplies the input tile by the upper
  half of W and the hidden tile by the lower half, and uses one logistic operation; the reference joins input and hidden
  into rows of 2048, multiplies once by W, and spells the logistic function 1 / (1 + e^(−g)). The two differ by the
  grouping of one sum — 2048 terms as 1024 + 1024 — and by that spelling, which on the extended reals is the logistic
  function's definition; no finiteness of the inputs is needed, so the precondition is never opened.

  The five claims:
  * the two kernel programs (word level and idealized) run to the end, fault nowhere and leave their arguments as
    launched: Proof/BitsFrame.lean and Proof/IdealFrame.lean (the host operations, then the pipelined region, the body's
    triple at every grid point);
  * so does the reference: its run, with the results dropped (Proof/RefIsCell.lean);
  * the idealized kernel is the word-level kernel's own text read at the ideal instance: no rewrite was applied, and the
    claim about rewrites is `True`;
  * the idealized kernel's two results are the specification's arrays of its arguments (Proof/TileValue.lean: the body's
    arithmetic at one element; Proof/CellValue.lean: from the 32 tiles to the whole arrays), and so are the reference's
    (Proof/RefIsCell.lean); from memories that agree on the arguments these are the same arrays.
-/
import proofs.«155004_j27736898798344_2_alg».proof.Defs
import proofs.«155004_j27736898798344_2_alg».proof.Proof.Gen.Kernel
import proofs.«155004_j27736898798344_2_alg».proof.Proof.Gen.KernelIdeal
import proofs.«155004_j27736898798344_2_alg».proof.Proof.Gen.ReferenceIdeal
import proofs.«155004_j27736898798344_2_alg».proof.Proof.Gen.ReferenceIdeal.Run
import proofs.«155004_j27736898798344_2_alg».proof.Proof.Gen.ReferenceIdeal.Read
import proofs.«155004_j27736898798344_2_alg».proof.Proof.Gen.Pre_finite_inputs
import proofs.«155004_j27736898798344_2_alg».proof.Proof.BitsFrame
import proofs.«155004_j27736898798344_2_alg».proof.Proof.IdealFrame
import proofs.«155004_j27736898798344_2_alg».proof.Proof.CellValue
import proofs.«155004_j27736898798344_2_alg».proof.Proof.RefIsCell

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.CellFrame.frame (F := Bits) m ρ

/-- So does the idealized kernel program. -/
theorem frame_kernel_ideal : Cert.frame_KernelIdeal := fun m ρ _ => Cert.KernelIdeal.CellFrame.frame (F := Ideal) m ρ

/-- So does the reference: its run, the two results dropped. -/
theorem frame_reference_ideal : Cert.frame_ReferenceIdeal := fun m ρ _ =>
  (θ_run Cert.ReferenceIdeal.defs _ _).mono (fun _ h c => (h c).2.2) (Cert.RefIsCell.run m ρ)

/-- No rewrite separates the two kernel programs. -/
theorem preserves : Cert.preserves_Kernel_KernelIdeal := trivial

/-- From memories agreeing on the eleven arguments, the idealized kernel and the reference both end with the
    specification's hidden and cell arrays of those arguments: the reference's weight matrix and bias are the same
    concatenations of the same per-gate arguments as the kernel's. -/
theorem algebraic : Cert.algebraic_KernelIdeal_ReferenceIdeal := by
  intro m ρ m' ρ' _ hagree
  refine ⟨fun c => Cert.LstmCell.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.CellValue.weights m c) (Cert.KernelIdeal.CellValue.biases m c),
    fun c => Cert.LstmCell.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.CellValue.weights m c) (Cert.KernelIdeal.CellValue.biases m c),
    Cert.KernelIdeal.CellValue.run m ρ, ?_⟩
  refine (θ_run Cert.ReferenceIdeal.defs _ _).mono (fun _ h c => ⟨(h c).1.trans ?_, (h c).2.1.trans ?_, (h c).2.2⟩)
    (Cert.RefIsCell.run m' ρ')
  · obtain ⟨a0, a1, a2, a3, a4, a5, a6, a7, a8, a9, a10⟩ := hagree c
    rw [a0, a1, a2, a3, a4, a5, a6, a7, a8, a9, a10]
    rfl
  · obtain ⟨a0, a1, a2, a3, a4, a5, a6, a7, a8, a9, a10⟩ := hagree c
    rw [a0, a1, a2, a3, a4, a5, a6, a7, a8, a9, a10]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
